-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S1536x1024 : Shape := ⟨2, ![1536, 1024]⟩
abbrev S1024 : Shape := ⟨1, ![1024]⟩
abbrev S1536x512 : Shape := ⟨2, ![1536, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_
  bcast_S_S1536x512 : S_.BroadcastsInDim S1536x512 (![] : Fin 0 → Fin S1536x512.rank)
  reducesTo_S1536x512_S_d0_1 : S1536x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S1536x512 .f32) (main_arg8 : FVec F S512 .f32) (main_arg9 : FVec F S1536x512 .f32) (main_arg10 : FVec F S512 .f32) (main_v33 : IVec S_ 1) : IVec S_ 1 :=
  let main_v34 : FVec F S1536x512 .f32 := Host.absf main_arg7
  let main_cst_12 : FVec F S_ .f32 := constant S_ .f32 0x7F800000#32
  let main_v35 : FVec F S1536x512 .f32 := broadcastInDim S1536x512 ![] bcast_S_S1536x512 main_cst_12
  let main_v36 : IVec S1536x512 1 := cmpf .olt main_v34 main_v35
  let main_c_13 : IVec S_ 1 := constantI S_ 1 1#1
  let main_v37 : IVec S_ 1 := (fun x v => Host.reduce IntOp.andi x v reducesTo_S1536x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1536x512 .f32 := Host.absf main_arg9
  let main_cst_16 : FVec F S_ .f32 := constant S_ .f32 0x7F800000#32
  let main_v45 : FVec F S1536x512 .f32 := broadcastInDim S1536x512 ![] bcast_S_S1536x512 main_cst_16
  let main_v46 : IVec S1536x512 1 := cmpf .olt main_v44 main_v45
  let main_c_17 : IVec S_ 1 := constantI S_ 1 1#1
  let main_v47 : IVec S_ 1 := (fun x v => Host.reduce IntOp.andi x v reducesTo_S1536x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S1024 .f32) (main_arg5 : FVec F S1536x1024 .f32) (main_arg6 : FVec F S1024 .f32) (main_arg7 : FVec F S1536x512 .f32) (main_arg8 : FVec F S512 .f32) (main_arg9 : FVec F S1536x512 .f32) (main_arg10 : FVec F S512 .f32) (main_v13 : IVec S_ 1) (main_v16 : IVec S1536x1024 1) : IVec S_ 1 :=
  let main_c_5 : IVec S_ 1 := constantI S_ 1 1#1
  let main_v17 : IVec S_ 1 := (fun x v => Host.reduce IntOp.andi x v reducesTo_S1536x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1536x1024 .f32 := Host.absf main_arg5
  let main_cst_8 : FVec F S_ .f32 := constant S_ .f32 0x7F800000#32
  let main_v25 : FVec F S1536x1024 .f32 := broadcastInDim S1536x1024 ![] bcast_S_S1536x1024 main_cst_8
  let main_v26 : IVec S1536x1024 1 := cmpf .olt main_v24 main_v25
  let main_c_9 : IVec S_ 1 := constantI S_ 1 1#1
  let main_v27 : IVec S_ 1 := (fun x v => Host.reduce IntOp.andi x v reducesTo_S1536x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x1024 .f32) (main_arg2 : FVec F S16384x1024 .f32) (main_arg3 : FVec F S1536x1024 .f32) (main_arg4 : FVec F S1024 .f32) (main_arg5 : FVec F S1536x1024 .f32) (main_arg6 : FVec F S1024 .f32) (main_arg7 : FVec F S1536x512 .f32) (main_arg8 : FVec F S512 .f32) (main_arg9 : FVec F S1536x512 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1536x1024 .f32 := Host.absf main_arg3
  let main_cst_4 : FVec F S_ .f32 := constant S_ .f32 0x7F800000#32
  let main_v15 : FVec F S1536x1024 .f32 := broadcastInDim S1536x1024 ![] bcast_S_S1536x1024 main_cst_4
  let main_v16 : IVec S1536x1024 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S16384x1024 : Shape := ⟨2, ![16384, 1024]⟩
abbrev S1536x1024 : Shape := ⟨2, ![1536, 1024]⟩
abbrev S1024 : Shape := ⟨1, ![1024]⟩
abbrev S1536x512 : Shape := ⟨2, ![1536, 512]⟩
abbrev S512 : Shape := ⟨1, ![512]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S1024x512 : Shape := ⟨2, ![1024, 512]⟩
abbrev S128x512 : Shape := ⟨2, ![128, 512]⟩
abbrev S128x1024 : Shape := ⟨2, ![128, 1024]⟩

abbrev nBuf : Space → Nat
  | .hbm => 34
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S1536x1024, .f32⟩
  | .hbm, ⟨4, _⟩ => ⟨S1024, .f32⟩
  | .hbm, ⟨5, _⟩ => ⟨S1536x1024, .f32⟩
  | .hbm, ⟨6, _⟩ => ⟨S1024, .f32⟩
  | .hbm, ⟨7, _⟩ => ⟨S1536x512, .f32⟩
  | .hbm, ⟨8, _⟩ => ⟨S512, .f32⟩
  | .hbm, ⟨9, _⟩ => ⟨S1536x512, .f32⟩
  | .hbm, ⟨10, _⟩ => ⟨S512, .f32⟩
  | .hbm, ⟨11, _⟩ => ⟨S512x1024, .f32⟩
  | .hbm, ⟨12, _⟩ => ⟨S1024x1024, .f32⟩
  | .hbm, ⟨13, _⟩ => ⟨S1x1024, .f32⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .bf16⟩
  | .hbm, ⟨20, _⟩ => ⟨S512x512, .f32⟩
  | .hbm, ⟨21, _⟩ => ⟨S1024x512, .f32⟩
  | .hbm, ⟨22, _⟩ => ⟨S512x512, .f32⟩
  | .hbm, ⟨23, _⟩ => ⟨S1024x512, .f32⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1x1024, .bf16⟩
  | .hbm, ⟨31, _⟩ => ⟨S16384x512, .f32⟩
  | .hbm, ⟨32, _⟩ => ⟨S16384x1024, .f32⟩
  | .hbm, ⟨33, _⟩ => ⟨S16384x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S512x1024, .f32⟩
  | .local _ .vmem, ⟨7, _⟩ => ⟨S1024x1024, .f32⟩
  | .local _ .vmem, ⟨8, _⟩ => ⟨S1x1024, .f32⟩
  | .local _ .vmem, ⟨9, _⟩ => ⟨S512x1024, .bf16⟩
  | .local _ .vmem, ⟨10, _⟩ => ⟨S1024x1024, .bf16⟩
  | .local _ .vmem, ⟨11, _⟩ => ⟨S1x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .bf16⟩
  | .local _ .vmem, ⟨15, _⟩ => ⟨S128x512, .f32⟩
  | .local _ .vmem, ⟨16, _⟩ => ⟨S128x512, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S1536x1024_S512x1024_0_0 : S1536x1024.Slices ![0, 0] S512x1024
  slices_S1536x1024_S1024x1024_512_0 : S1536x1024.Slices ![512, 0] S1024x1024
  shapeCasts_S1024_S1x1024 : S1024.ShapeCasts S1x1024
  bitsLt_bf16_f32 : FTy.bits .bf16 < FTy.bits .f32
  slices_S1536x512_S512x512_0_0 : S1536x512.Slices ![0, 0] S512x512
  slices_S1536x512_S1024x512_512_0 : S1536x512.Slices ![512, 0] S1024x512
  concatenates_S512x512_S512x512_S512x1024_d1 : Shape.Concatenates [S512x512, S512x512] S512x1024 1
  concatenates_S1024x512_S1024x512_S1024x1024_d1 : Shape.Concatenates [S1024x512, S1024x512] S1024x1024 1
  concatenates_S512_S512_S1024_d0 : Shape.Concatenates [S512, S512] S1024 0
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  natLt_1_32 : 1 < 32
  slices_S128x1024_o0_0_S128x512 : S128x1024.Slices ![0, 0] S128x512
  slices_S128x1024_o0_512_S128x512 : S128x1024.Slices ![0, 512] S128x512
  dot_S128x512_S512x1024_S128x1024_1_0_0_1_n_n_wf : DotDims.WF S128x512 S512x1024 S128x1024 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S16384x512.size a
  hwx0_0 : ∀ i : grid0.Coords, EltTy.bits .f32 = 32 ∨ (Rect.block (s := S16384x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .bf16 = 32 ∨ (Rect.block (s := S1x1024) S1x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S512x1024.size a
  hwx0_9 : ∀ i : grid0.Coords, EltTy.bits .bf16 = 32 ∨ (Rect.block (s := S512x1024) S512x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .bf16 = 32 ∨ (Rect.block (s := S1x1024) S1x1024.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S16384x512.size a
  hwx0_12 : ∀ i : grid0.Coords, EltTy.bits .f32 = 32 ∨ (Rect.block (s := S16384x512) S128x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1024.size a ≤ S16384x1024.size a
  hwx0_13 : ∀ i : grid0.Coords, EltTy.bits .f32 = 32 ∨ (Rect.block (s := S16384x1024) S128x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1024.size a ≤ S16384x1024.size a
  hwx0_14 : ∀ i : grid0.Coords, EltTy.bits .f32 = 32 ∨ (Rect.block (s := S16384x1024) S128x1024.size (cc0_transform_14 i) (hinb0_14 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20_0) S128x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v20_1) S128x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v20_2) S128x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S1536x1024 : Shape := ⟨2, ![1536, 1024]⟩
abbrev S1024 : Shape := ⟨1, ![1024]⟩
abbrev S1536x512 : Shape := ⟨2, ![1536, 512]⟩
abbrev S512 : Shape := ⟨1, ![512]⟩
abbrev S16384x1536 : Shape := ⟨2, ![16384, 1536]⟩
abbrev S1x1024 : Shape := ⟨2, ![1, 1024]⟩
abbrev S_ : Shape := ⟨0, ![]⟩
abbrev S1x512 : Shape := ⟨2, ![1, 512]⟩

abbrev nBuf : Space → Nat
  | .hbm => 55
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S1536x1024, .f32⟩
  | .hbm, ⟨4, _⟩ => ⟨S1024, .f32⟩
  | .hbm, ⟨5, _⟩ => ⟨S1536x1024, .f32⟩
  | .hbm, ⟨6, _⟩ => ⟨S1024, .f32⟩
  | .hbm, ⟨7, _⟩ => ⟨S1536x512, .f32⟩
  | .hbm, ⟨8, _⟩ => ⟨S512, .f32⟩
  | .hbm, ⟨9, _⟩ => ⟨S1536x512, .f32⟩
  | .hbm, ⟨10, _⟩ => ⟨S512, .f32⟩
  | .hbm, ⟨11, _⟩ => ⟨S16384x1536, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .i1⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1536, .f32⟩
  | .hbm, ⟨37, _⟩ => ⟨S16384x512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  concatenates_S16384x512_S16384x1024_S16384x1536_d1 : Shape.Concatenates [S16384x512, S16384x1024] S16384x1536 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x1536_S1536x1024_S16384x1024_1_0_0_1_n_n_wf : DotDims.WF S16384x1536 S1536x1024 S16384x1024 [1] [0] [0] [1] [] []
  dot_S16384x1536_S1536x512_S16384x512_1_0_0_1_n_n_wf : DotDims.WF S16384x1536 S1536x512 S16384x512 [1] [0] [0] [1] [] []

variable [Facts₀]

def dot_S16384x1536_S1536x1024_S16384x1024_1_0_0_1_n_n : DotDims S16384x1536 S1536x1024 S16384x1024 where
  lhsContracting := [1]
  rhsContracting := [0]
  lhsNonContracting := [0]
  rhsNonContracting := [1]
  lhsBatch := []
  rhsBatch := []
  wf := dot_S16384x1536_S1536x1024_S16384x1024_1_0_0_1_n_n_wf
def dot_S16384x1536_S1536x512_S16384x512_1_0_0_1_n_n : DotDims S16384x1536 S1536x512 S16384x512 where
  lhsContracting := [1]
  rhsContracting := [0]
  lhsNonContracting := [0]
  rhsNonContracting := [1]
  lhsBatch := []
  rhsBatch := []
  wf := dot_S16384x1536_S1536x512_S16384x512_1_0_0_1_n_n_wf

class Facts : Prop extends Facts₀ where

variable [Facts]
-- ==== Proof.Spec.lean ====
/-
  The gated recurrent cell, as functions on the extended reals.

  A batch row p carries an input x(p, ·) of length 512 and a state h(p, ·) of length 1024.  Every sub-network is one affine
  map of the joined row [x(p, ·) | h(p, ·)] of length 1536 through a weight matrix W with 1536 rows, plus a bias: at
  column q it is
      Σ_{k < 512} x(p, k) · W(k, q)  +  Σ_{k < 1024} h(p, k) · W(512 + k, q)  +  b(q),
  the contraction over the joined row written as its two stretches (`affine`, `pre`).

  With i = pre(Wg, bg), r = pre(Wr, br):
      gate   Λ = max(tanh(i − noise), 0)
      step   Θ = 1 if Λ > 0 else 0                       (the comparison's one-bit word read as a number)
      state  h' = Λ · tanh(r) + (1 − Λ) · h
      out    y = tanh(pre'(Wy, by)) · logistic(pre'(Wo, bo)),   pre' taken over the joined row [x | h'].

  The one algebraic law used to compare two arrangements of the contraction is that a sum over 1536 positions is the sum
  over the first 512 plus the sum over the last 1024 (`sum_join`): commutativity and associativity of addition only, so
  it holds on the extended reals with no finiteness assumption.
-/
import Idealize.ShloMosaic.Lib.ValueIdx
import Idealize.ShloMosaic.PureOps.Ideal
import Idealize.ShloMosaic.PureOps.Ideal.Laws

noncomputable section

namespace Cert.GatedCell

open Idealize.ShloMosaic Idealize.ShloMosaic.ValueIdx

/-- A matrix and a vector of extended reals, indexed as the programs index their arrays. -/
abbrev Mat (a b : Nat) : Type := (⟨2, ![a, b]⟩ : Shape).Idx → EReal
abbrev Row (a : Nat) : Type := (⟨1, ![a]⟩ : Shape).Idx → EReal

/-- The numbers 0 and 1 as both programs spell them (the f32 words; never evaluated except where 1 meets the logistic). -/
abbrev zeroW : EReal := Ideal.ofBits .f32 0x00000000#32
abbrev oneW : EReal := Ideal.ofBits .f32 0x3F800000#32

/-- Position k of the first stretch, and of the second stretch, of the joined row. -/
def lo (k : Fin 512) : Fin 1536 := ⟨k.val, by have := k.isLt; omega⟩
def hi (k : Fin 1024) : Fin 1536 := ⟨512 + k.val, by have := k.isLt; omega⟩

/-- Two stretches contracted against their weights, plus a bias. -/
def affine (a u : Fin 512 → EReal) (b v : Fin 1024 → EReal) (β : EReal) : EReal :=
  (∑ k : Fin 512, a k * u k + ∑ k : Fin 1024, b k * v k) + β

/-- A SUM OVER THE JOINED ROW is the sum over its first stretch plus the sum over its second. -/
theorem sum_join (f : Fin 1536 → EReal) : ∑ k : Fin 1536, f k = ∑ k : Fin 512, f (lo k) + ∑ k : Fin 1024, f (hi k) := by
  have h := Fin.sum_univ_add (a := 512) (b := 1024) (M := EReal) f
  exact h.trans rfl

/-- The affine map of the joined row [x(p, ·) | h(p, ·)] through W, plus the bias, at column q. -/
def pre {N : Nat} (x : Mat 16384 512) (h : Mat 16384 1024) (W : Mat 1536 N) (b : Row N) (p : Fin 16384) (q : Fin N) : EReal :=
  affine (fun k => x (ix2 p k)) (fun k => W (ix2 (lo k) q)) (fun k => h (ix2 p k)) (fun k => W (ix2 (hi k) q)) (b (ix1 q))

/-- The update gate from its pre-activation and the noise. -/
def gateOf (i noise : EReal) : EReal := max (Ideal.tanh (i - noise)) zeroW

/-- The step of a gate value: the word of the comparison Λ > 0, read as a number. -/
def stepOf (g : EReal) : EReal := FloatOps.uitofp (F := Ideal) .f32 (FloatOps.cmpf (F := Ideal) (φ := .f32) .ogt g zeroW)

/-- The new state from the gate, the candidate's pre-activation and the old state. -/
def blend (g r hprev : EReal) : EReal := g * Ideal.tanh r + (oneW - g) * hprev

/-- The output from the two heads' pre-activations. -/
def head (y o : EReal) : EReal := Ideal.tanh y * Ideal.logistic o

variable (x : Mat 16384 512) (h noise : Mat 16384 1024) (Wg : Mat 1536 1024) (bg : Row 1024) (Wr : Mat 1536 1024) (br : Row 1024)
  (Wy : Mat 1536 512) (bY : Row 512) (Wo : Mat 1536 512) (bo : Row 512)

def gate (p : Fin 16384) (q : Fin 1024) : EReal := gateOf (pre x h Wg bg p q) (noise (ix2 p q))

def state (p : Fin 16384) (q : Fin 1024) : EReal := blend (gate x h noise Wg bg p q) (pre x h Wr br p q) (h (ix2 p q))

/-- The three results as whole arrays. -/
def stepArr : Mat 16384 1024 := fun i => stepOf (gate x h noise Wg bg (i 0) (i 1))
def stateArr : Mat 16384 1024 := fun i => state x h noise Wg bg Wr br (i 0) (i 1)
def outArr : Mat 16384 512 := fun i =>
  head (pre x (stateArr x h noise Wg bg Wr br) Wy bY (i 0) (i 1)) (pre x (stateArr x h noise Wg bg Wr br) Wo bo (i 0) (i 1))

end Cert.GatedCell

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibIndicatorWord.lean ====
/-
  A one-bit word as an extended real, two ways.

  A comparison yields a one-bit word.  Converted to a float it is 0 or 1, whichever of the two routes a program takes:
  read unsigned directly, or first widened to 32 bits by zero extension and then read signed — the widened word is 0 or
  1, whose signed and unsigned readings agree.  And the conjunction of two such words, converted, is the product of
  the two conversions: on {0, 1} `and` is multiplication.  At the extended reals the conversions are exact, so these
  are equalities of extended reals.
-/
import Idealize.ShloMosaic.PureOps.Ideal.Laws
import Idealize.ShloMosaic.Lib.ValueIdx

namespace Cert.Lib.IndicatorWord

open Idealize.ShloMosaic Idealize.ShloMosaic.ValueIdx

/-- A one-bit word is 0 or 1. -/
theorem zero_or_one (b : BitVec 1) : b = 0#1 ∨ b = 1#1 := by
  by_cases h : b = 1#1
  · exact Or.inr h
  · exact Or.inl (eq_zero_of_ne_one h)

/-- Widened by zero extension and read signed, a one-bit word is what it is read unsigned. -/
theorem toInt_widened (b : BitVec 1) : (b.setWidth 32).toInt = (b.toNat : ℤ) := by
  rcases zero_or_one b with rfl | rfl <;> decide

/-- Read unsigned, the conjunction of two one-bit words is the product of the two. -/
theorem toNat_and (b c : BitVec 1) : (IntOp.andi b c).toNat = b.toNat * c.toNat := by
  rcases zero_or_one b with rfl | rfl <;> rcases zero_or_one c with rfl | rfl <;> decide

/-- At the extended reals: widening a one-bit word and converting it as a signed integer is converting it as an
    unsigned one. -/
theorem sitofp_widened (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_widened]
  norm_cast

/-- At the extended reals: the conjunction of two one-bit words, widened and converted, is the product of the two
    words converted. -/
theorem sitofp_widened_and (φ : FTy) (b c : BitVec 1) :
    FloatOps.sitofp (F := Ideal) φ ((IntOp.andi b c).setWidth 32)
      = FloatOps.uitofp (F := Ideal) φ b * FloatOps.uitofp (F := Ideal) φ c := by
  rw [sitofp_widened]
  show (((IntOp.andi b c).toNat : ℝ) : EReal) = ((b.toNat : ℝ) : EReal) * ((c.toNat : ℝ) : EReal)
  rw [toNat_and, ← EReal.coe_mul]
  norm_cast

end Cert.Lib.IndicatorWord
-- ==== Proof.Payload.lean ====
/-
  What the kernel's body computes from one batch tile, entry by entry.

  The body holds a tile of 128 batch rows: the rows' inputs X (128 × 512), old states H and noises (128 × 1024), and the
  whole weights, each network's weight matrix cut in its input stretch (512 rows) and its state stretch (1024 rows), the
  biases as 1 × 1024 rows.  Each matrix product into a zero accumulator is a plain sum over the contracted position, a
  1 × 1024 row broadcast over the tile's rows reads the row, a change of float format is the identity, and the comparison's
  one-bit word widened and read signed is the word read unsigned.  So at tile row r and column q

    • the gate payload is  gateOf ((Σ X(r,k)·Ux(k,q) + Σ H(r,k)·Uh(k,q)) + β(0,q))  (noise(r,q)),
    • the step payload its stepOf,
    • the candidate's payload the two sums, the candidate's bias payload the bias row at (0, q),
    • the state payload  blend (gate) (candidate sums + bias) (H(r,q)),
    • the output payload  head (column q of the fused product) (column 512 + q of the fused product),
      the fused product taken with the tile's NEW state rows.
-/
import proofs.«169552_j84018150245162_2_alg».proof.Proof.Gen.KernelIdeal.Skeleton
import proofs.«169552_j84018150245162_2_alg».proof.Proof.Spec
import proofs.«169552_j84018150245162_2_alg».proof.Proof.LibPlainDot
import proofs.«169552_j84018150245162_2_alg».proof.Proof.LibIndicatorWord
import Idealize.ShloMosaic.Lib.Pipeline.Value
import Idealize.ShloMosaic.Lib.ValueIdx
import Idealize.ShloMosaic.Lib.ValueLayout
import Idealize.ShloMosaic.PureOps.Ideal.Laws

noncomputable section

namespace Cert.GatedCell.Tile

open Cert.KernelIdeal Cert.KernelIdeal.Gen Cert.GatedCell
open Idealize.ShloMosaic Idealize.ShloMosaic.ValueIdx

/-- The input stretch's product at (r, q): a sum over the 512 input positions. -/
theorem dotX (prec : Option ContractPrecision) {φ₁ φ₂ : FTy} (l : FVec Ideal S128x512 φ₁) (w : FVec Ideal S512x1024 φ₂)
    (r : Fin 128) (q : Fin 1024) :
    FloatOps.matmul dot_S128x512_S512x1024_S128x1024_1_0_0_1_n_n prec l w (constant (F := Ideal) S128x1024 .f32 0x00000000#32) (ix2 r q)
      = ∑ k : Fin 512, l (ix2 r k) * w (ix2 k q) :=
  Cert.Lib.matmul_zero_apply (M := 128) (K := 512) (N := 1024) Facts₀.dot_S128x512_S512x1024_S128x1024_1_0_0_1_n_n_wf prec l w r q

/-- The state stretch's product at (r, q): a sum over the 1024 state positions. -/
theorem dotH (prec : Option ContractPrecision) {φ₁ φ₂ : FTy} (l : FVec Ideal S128x1024 φ₁) (w : FVec Ideal S1024x1024 φ₂)
    (r : Fin 128) (q : Fin 1024) :
    FloatOps.matmul dot_S128x1024_S1024x1024_S128x1024_1_0_0_1_n_n prec l w (constant (F := Ideal) S128x1024 .f32 0x00000000#32) (ix2 r q)
      = ∑ k : Fin 1024, l (ix2 r k) * w (ix2 k q) :=
  Cert.Lib.matmul_zero_apply (M := 128) (K := 1024) (N := 1024) Facts₀.dot_S128x1024_S1024x1024_S128x1024_1_0_0_1_n_n_wf prec l w r q

/-- A bias row broadcast over the tile reads the row. -/
theorem biasRow {φ : FTy} (v : FVec Ideal S1x1024 φ) (r : Fin 128) (q : Fin 1024) :
    broadcastTo S128x1024 v Facts₀.broadcasts_S1x1024_S128x1024 (ix2 r q) = v (ix2 (0 : Fin 1) q) :=
  broadcastTo_1b_ab_apply v _ r q

variable (X : FVec Ideal S128x512 .f32) (H N : FVec Ideal S128x1024 .f32)

/-- THE GATE PAYLOAD at (r, q). -/
theorem gate_at (Ux : FVec Ideal S512x1024 .f32) (Uh : FVec Ideal S1024x1024 .f32) (β : FVec Ideal S1x1024 .f32) (r : Fin 128) (q : Fin 1024) :
    k0_pay3 (F := Ideal) X H N Ux Uh β (ix2 r q)
      = gateOf (affine (fun k => X (ix2 r k)) (fun k => Ux (ix2 k q)) (fun k => H (ix2 r k)) (fun k => Uh (ix2 k q)) (β (ix2 (0 : Fin 1) q)))
          (N (ix2 r q)) := by
  unfold k0_pay3
  simp only [shapeCast_self]
  show max (Ideal.tanh (((FloatOps.matmul dot_S128x512_S512x1024_S128x1024_1_0_0_1_n_n (some .fp32) X Ux (constant (F := Ideal) S128x1024 .f32 0x00000000#32) (ix2 r q)
      + FloatOps.matmul dot_S128x1024_S1024x1024_S128x1024_1_0_0_1_n_n (some .fp32) H Uh (constant (F := Ideal) S128x1024 .f32 0x00000000#32) (ix2 r q))
      + broadcastTo S128x1024 β Facts₀.broadcasts_S1x1024_S128x1024 (ix2 r q)) - N (ix2 r q))) zeroW = _
  rw [dotX, dotH, biasRow]
  rfl

/-- THE STEP PAYLOAD at (r, q): the step of the gate payload. -/
theorem step_at (Ux : FVec Ideal S512x1024 .f32) (Uh : FVec Ideal S1024x1024 .f32) (β : FVec Ideal S1x1024 .f32) (r : Fin 128) (q : Fin 1024) :
    k0_pay4 (F := Ideal) X H N Ux Uh β (ix2 r q) = stepOf (k0_pay3 (F := Ideal) X H N Ux Uh β (ix2 r q)) := by
  unfold k0_pay4
  exact Cert.Lib.IndicatorWord.sitofp_widened .f32 _

/-- The candidate's two products at (r, q) (the operands' change of float format is the identity). -/
theorem cand_at (Vx : FVec Ideal S512x1024 .bf16) (Vh : FVec Ideal S1024x1024 .bf16) (r : Fin 128) (q : Fin 1024) :
    k0_pay6 (F := Ideal) X H Vx Vh (ix2 r q) = ∑ k : Fin 512, X (ix2 r k) * Vx (ix2 k q) + ∑ k : Fin 1024, H (ix2 r k) * Vh (ix2 k q) := by
  unfold k0_pay6 k0_pay5
  simp only [shapeCast_self]
  show FloatOps.matmul dot_S128x512_S512x1024_S128x1024_1_0_0_1_n_n none (truncf .bf16 X Facts₀.bitsLt_bf16_f32) Vx (constant (F := Ideal) S128x1024 .f32 0x00000000#32) (ix2 r q)
      + FloatOps.matmul dot_S128x1024_S1024x1024_S128x1024_1_0_0_1_n_n none (truncf .bf16 H Facts₀.bitsLt_bf16_f32) Vh (constant (F := Ideal) S128x1024 .f32 0x00000000#32) (ix2 r q) = _
  rw [dotX, dotH]
  rfl

/-- The candidate's bias payload at (r, q): the bias row. -/
theorem candBias_at (γ : FVec Ideal S1x1024 .bf16) (r : Fin 128) (q : Fin 1024) :
    k0_pay7 (F := Ideal) γ (ix2 r q) = γ (ix2 (0 : Fin 1) q) := by
  unfold k0_pay7
  simp only [shapeCast_self]
  exact biasRow (extf .f32 γ Facts₀.bitsLt_bf16_f32) r q

/-- THE STATE PAYLOAD at (r, q), from the gate, the candidate's sums and its bias as arrays of the tile. -/
theorem state_at (g c cb : FVec Ideal S128x1024 .f32) (r : Fin 128) (q : Fin 1024) :
    k0_pay1 (F := Ideal) H g c cb (ix2 r q) = blend (g (ix2 r q)) (c (ix2 r q) + cb (ix2 r q)) (H (ix2 r q)) := rfl

/-- THE OUTPUT PAYLOAD at (r, q): the two heads read columns q and 512 + q of the fused product of the tile's input rows and
    NEW state rows with the fused weights, plus the fused bias row. -/
theorem out_at (g c cb : FVec Ideal S128x1024 .f32) (Zx : FVec Ideal S512x1024 .bf16) (Zh : FVec Ideal S1024x1024 .bf16)
    (ζ : FVec Ideal S1x1024 .bf16) (r : Fin 128) (q : Fin 512) (qy qo : Fin 1024) (hy : qy.val = q.val) (ho : qo.val = 512 + q.val) :
    k0_pay2 (F := Ideal) H g (k0_pay5 (F := Ideal) X) c cb Zx Zh ζ (ix2 r q)
      = head (affine (fun k => X (ix2 r k)) (fun k => Zx (ix2 k qy)) (fun k => k0_pay1 (F := Ideal) H g c cb (ix2 r k)) (fun k => Zh (ix2 k qy)) (ζ (ix2 (0 : Fin 1) qy)))
          (affine (fun k => X (ix2 r k)) (fun k => Zx (ix2 k qo)) (fun k => k0_pay1 (F := Ideal) H g c cb (ix2 r k)) (fun k => Zh (ix2 k qo)) (ζ (ix2 (0 : Fin 1) qo))) := by
  unfold k0_pay2 k0_pay5
  simp only [shapeCast_self]
  -- the fused pre-activation, one [128, 1024] array
  generalize hZ : (addf (addf (FloatOps.matmul dot_S128x512_S512x1024_S128x1024_1_0_0_1_n_n none (truncf .bf16 X Facts₀.bitsLt_bf16_f32) Zx (constant (F := Ideal) S128x1024 .f32 0x00000000#32))
      (FloatOps.matmul dot_S128x1024_S1024x1024_S128x1024_1_0_0_1_n_n none (truncf .bf16 (k0_pay1 (F := Ideal) H g c cb) Facts₀.bitsLt_bf16_f32) Zh (constant (F := Ideal) S128x1024 .f32 0x00000000#32)))
      (broadcastTo S128x1024 (extf .f32 ζ Facts₀.bitsLt_bf16_f32) Facts₀.broadcasts_S1x1024_S128x1024) : FVec Ideal S128x1024 .f32) = Z
  have hZat : ∀ q' : Fin 1024, Z (ix2 r q') = affine (fun k => X (ix2 r k)) (fun k => Zx (ix2 k q')) (fun k => k0_pay1 (F := Ideal) H g c cb (ix2 r k)) (fun k => Zh (ix2 k q')) (ζ (ix2 (0 : Fin 1) q')) := by
    intro q'
    rw [← hZ]
    show (FloatOps.matmul dot_S128x512_S512x1024_S128x1024_1_0_0_1_n_n none (truncf .bf16 X Facts₀.bitsLt_bf16_f32) Zx (constant (F := Ideal) S128x1024 .f32 0x00000000#32) (ix2 r q')
      + FloatOps.matmul dot_S128x1024_S1024x1024_S128x1024_1_0_0_1_n_n none (truncf .bf16 (k0_pay1 (F := Ideal) H g c cb) Facts₀.bitsLt_bf16_f32) Zh (constant (F := Ideal) S128x1024 .f32 0x00000000#32) (ix2 r q'))
      + broadcastTo S128x1024 (extf .f32 ζ Facts₀.bitsLt_bf16_f32) Facts₀.broadcasts_S1x1024_S128x1024 (ix2 r q') = _
    rw [dotX, dotH, biasRow]
    rfl
  show Ideal.tanh (extractStridedSlice S128x512 ![0, 0] Z Facts₀.slices_S128x1024_o0_0_S128x512 (ix2 r q))
      * Ideal.logistic (extractStridedSlice S128x512 ![0, 512] Z Facts₀.slices_S128x1024_o0_512_S128x512 (ix2 r q)) = _
  rw [slice2_axis1_apply 0 Z Facts₀.slices_S128x1024_o0_0_S128x512 r q qy (by rw [hy]; omega),
    slice2_axis1_apply 512 Z Facts₀.slices_S128x1024_o0_512_S128x512 r q qo ho, hZat qy, hZat qo]
  rfl

end Cert.GatedCell.Tile

end
-- ==== Proof.Tile.lean ====
/-
  One batch tile of the kernel computes the cell's rows.

  Let ρ send a tile row r to its batch row.  If the tile's input, state and noise blocks hold the batch rows ρ r of the
  arrays, the weight blocks hold the input stretch (rows lo k) and the state stretch (rows hi k) of each network's weight
  matrix, the fused head weights hold the first head's matrix in columns q and the second head's in columns 512 + q, and the
  bias rows hold the bias vectors (the fused one likewise split), then entry (r, q) of each payload is the cell's
  gate / step / state / output at batch row ρ r: the two stretches' sums are `pre`'s two sums term by term.
-/
import proofs.«169552_j84018150245162_2_alg».proof.Proof.Payload

noncomputable section

namespace Cert.GatedCell.Tile

open Cert.KernelIdeal Cert.KernelIdeal.Gen Cert.GatedCell
open Idealize.ShloMosaic Idealize.ShloMosaic.ValueIdx

/-- Two affine maps with equal terms are equal. -/
theorem affine_congr {a a' u u' : Fin 512 → EReal} {b b' v v' : Fin 1024 → EReal} {β β' : EReal}
    (ha : ∀ k, a k = a' k) (hu : ∀ k, u k = u' k) (hb : ∀ k, b k = b' k) (hv : ∀ k, v k = v' k) (hβ : β = β') :
    affine a u b v β = affine a' u' b' v' β' := by
  obtain rfl : a = a' := funext ha
  obtain rfl : u = u' := funext hu
  obtain rfl : b = b' := funext hb
  obtain rfl : v = v' := funext hv
  rw [hβ]

/-- The column q of the first head and the column 512 + q of the second, in the fused weights. -/
def colY (q : Fin 512) : Fin 1024 := ⟨q.val, by have := q.isLt; omega⟩
def colO (q : Fin 512) : Fin 1024 := ⟨512 + q.val, by have := q.isLt; omega⟩

variable (X : FVec Ideal S128x512 .f32) (H N : FVec Ideal S128x1024 .f32)
  (Ux : FVec Ideal S512x1024 .f32) (Uh : FVec Ideal S1024x1024 .f32) (β : FVec Ideal S1x1024 .f32)
  (Vx : FVec Ideal S512x1024 .bf16) (Vh : FVec Ideal S1024x1024 .bf16) (γ : FVec Ideal S1x1024 .bf16)
  (Zx : FVec Ideal S512x1024 .bf16) (Zh : FVec Ideal S1024x1024 .bf16) (ζ : FVec Ideal S1x1024 .bf16)
  (x : Mat 16384 512) (h noise : Mat 16384 1024) (Wg : Mat 1536 1024) (bg : Row 1024) (Wr : Mat 1536 1024) (br : Row 1024)
  (Wy : Mat 1536 512) (bY : Row 512) (Wo : Mat 1536 512) (bo : Row 512)
  (ρ : Fin 128 → Fin 16384)

/-- What the blocks of a tile hold, in terms of the whole arrays. -/
structure Holds : Prop where
  hX : ∀ (r : Fin 128) (k : Fin 512), X (ix2 r k) = x (ix2 (ρ r) k)
  hH : ∀ (r : Fin 128) (k : Fin 1024), H (ix2 r k) = h (ix2 (ρ r) k)
  hN : ∀ (r : Fin 128) (q : Fin 1024), N (ix2 r q) = noise (ix2 (ρ r) q)
  hUx : ∀ (k : Fin 512) (q : Fin 1024), Ux (ix2 k q) = Wg (ix2 (lo k) q)
  hUh : ∀ (k : Fin 1024) (q : Fin 1024), Uh (ix2 k q) = Wg (ix2 (hi k) q)
  hβ : ∀ q : Fin 1024, β (ix2 (0 : Fin 1) q) = bg (ix1 q)
  hVx : ∀ (k : Fin 512) (q : Fin 1024), Vx (ix2 k q) = Wr (ix2 (lo k) q)
  hVh : ∀ (k : Fin 1024) (q : Fin 1024), Vh (ix2 k q) = Wr (ix2 (hi k) q)
  hγ : ∀ q : Fin 1024, γ (ix2 (0 : Fin 1) q) = br (ix1 q)
  hZxY : ∀ (k : Fin 512) (q : Fin 512), Zx (ix2 k (colY q)) = Wy (ix2 (lo k) q)
  hZxO : ∀ (k : Fin 512) (q : Fin 512), Zx (ix2 k (colO q)) = Wo (ix2 (lo k) q)
  hZhY : ∀ (k : Fin 1024) (q : Fin 512), Zh (ix2 k (colY q)) = Wy (ix2 (hi k) q)
  hZhO : ∀ (k : Fin 1024) (q : Fin 512), Zh (ix2 k (colO q)) = Wo (ix2 (hi k) q)
  hζY : ∀ q : Fin 512, ζ (ix2 (0 : Fin 1) (colY q)) = bY (ix1 q)
  hζO : ∀ q : Fin 512, ζ (ix2 (0 : Fin 1) (colO q)) = bo (ix1 q)

variable {X H N Ux Uh β Vx Vh γ Zx Zh ζ x h noise Wg bg Wr br Wy bY Wo bo ρ}
variable (hh : Holds X H N Ux Uh β Vx Vh γ Zx Zh ζ x h noise Wg bg Wr br Wy bY Wo bo ρ)
include hh

/-- The tile's gate entries are the cell's gate at the batch rows. -/
theorem gate_tile (r : Fin 128) (q : Fin 1024) :
    k0_pay3 (F := Ideal) X H N Ux Uh β (ix2 r q) = gate x h noise Wg bg (ρ r) q := by
  rw [gate_at]
  unfold gate pre
  rw [hh.hN]
  exact congrArg (gateOf · _) (affine_congr (hh.hX r) (fun k => hh.hUx k q) (hh.hH r) (fun k => hh.hUh k q) (hh.hβ q))

/-- The tile's step entries. -/
theorem step_tile (y : S128x1024.Idx) (i : (⟨2, ![16384, 1024]⟩ : Shape).Idx)
    (h0 : (i 0).val = (ρ (y 0)).val) (h1 : (i 1).val = (y 1).val) :
    k0_pay4 (F := Ideal) X H N Ux Uh β y = stepArr x h noise Wg bg i := by
  obtain ⟨r, q, rfl⟩ : ∃ (r : Fin 128) (q : Fin 1024), y = ix2 r q := ⟨y 0, y 1, eq_ix2 y⟩
  obtain ⟨p, q', rfl⟩ : ∃ (p : Fin 16384) (q' : Fin 1024), i = ix2 p q' := ⟨i 0, i 1, eq_ix2 i⟩
  obtain rfl : p = ρ r := Fin.ext h0
  obtain rfl : q = q' := (Fin.ext h1).symm
  rw [step_at, gate_tile hh]
  rfl

/-- The tile's state entries are the cell's state at the batch rows. -/
theorem state_tile (r : Fin 128) (q : Fin 1024) :
    k0_pay1 (F := Ideal) H (k0_pay3 (F := Ideal) X H N Ux Uh β) (k0_pay6 (F := Ideal) X H Vx Vh) (k0_pay7 (F := Ideal) γ) (ix2 r q)
      = state x h noise Wg bg Wr br (ρ r) q := by
  rw [state_at, gate_tile hh, cand_at, candBias_at, hh.hH]
  unfold state pre
  show blend _ (affine (fun k => X (ix2 r k)) (fun k => Vx (ix2 k q)) (fun k => H (ix2 r k)) (fun k => Vh (ix2 k q)) (γ (ix2 (0 : Fin 1) q))) _ = _
  rw [affine_congr (hh.hX r) (fun k => hh.hVx k q) (hh.hH r) (fun k => hh.hVh k q) (hh.hγ q)]

/-- The tile's state block, at any index of the state array over it. -/
theorem stateArr_tile (y : S128x1024.Idx) (i : (⟨2, ![16384, 1024]⟩ : Shape).Idx)
    (h0 : (i 0).val = (ρ (y 0)).val) (h1 : (i 1).val = (y 1).val) :
    k0_pay1 (F := Ideal) H (k0_pay3 (F := Ideal) X H N Ux Uh β) (k0_pay6 (F := Ideal) X H Vx Vh) (k0_pay7 (F := Ideal) γ) y
      = stateArr x h noise Wg bg Wr br i := by
  obtain ⟨r, q, rfl⟩ : ∃ (r : Fin 128) (q : Fin 1024), y = ix2 r q := ⟨y 0, y 1, eq_ix2 y⟩
  obtain ⟨p, q', rfl⟩ : ∃ (p : Fin 16384) (q' : Fin 1024), i = ix2 p q' := ⟨i 0, i 1, eq_ix2 i⟩
  obtain rfl : p = ρ r := Fin.ext h0
  obtain rfl : q = q' := (Fin.ext h1).symm
  exact state_tile hh r q

/-- The tile's output block, at any index of the output array over it. -/
theorem outArr_tile (y : S128x512.Idx) (i : (⟨2, ![16384, 512]⟩ : Shape).Idx)
    (h0 : (i 0).val = (ρ (y 0)).val) (h1 : (i 1).val = (y 1).val) :
    k0_pay2 (F := Ideal) H (k0_pay3 (F := Ideal) X H N Ux Uh β) (k0_pay5 (F := Ideal) X) (k0_pay6 (F := Ideal) X H Vx Vh) (k0_pay7 (F := Ideal) γ) Zx Zh ζ y
      = outArr x h noise Wg bg Wr br Wy bY Wo bo i := by
  obtain ⟨r, q, rfl⟩ : ∃ (r : Fin 128) (q : Fin 512), y = ix2 r q := ⟨y 0, y 1, eq_ix2 y⟩
  obtain ⟨p, q', rfl⟩ : ∃ (p : Fin 16384) (q' : Fin 512), i = ix2 p q' := ⟨i 0, i 1, eq_ix2 i⟩
  obtain rfl : p = ρ r := Fin.ext h0
  obtain rfl : q = q' := (Fin.ext h1).symm
  rw [out_at X H _ _ _ Zx Zh ζ r q (colY q) (colO q) rfl rfl]
  unfold outArr pre
  refine congrArg₂ head ?_ ?_
  · exact affine_congr (hh.hX r) (fun k => hh.hZxY k q) (fun k => state_tile hh r k) (fun k => hh.hZhY k q) (hh.hζY q)
  · exact affine_congr (hh.hX r) (fun k => hh.hZxO k q) (fun k => state_tile hh r k) (fun k => hh.hZhO k q) (hh.hζO q)

end Cert.GatedCell.Tile

end
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.HostPrep.lean ====
/-
  What the kernel's launch finds in its weight windows.

  Before the launch the host cuts each network's weight matrix (1536 rows) into its input stretch, rows 0 … 511, and its
  state stretch, rows 512 … 1535; rounds the candidate's and the heads' pieces to a shorter float format, which is the identity
  on the extended reals; joins the two heads' pieces side by side into one matrix of 1024 columns, the first head in columns
  0 … 511 and the second in columns 512 … 1023, and the two heads' biases end to end likewise; and reshapes each bias vector
  of length n into a 1 × n row.  Read at an index, each prepared array is therefore an entry of an argument array.
-/
import proofs.«169552_j84018150245162_2_alg».proof.Proof.Gen.KernelIdeal.Frame
import proofs.«169552_j84018150245162_2_alg».proof.Proof.Spec
import proofs.«169552_j84018150245162_2_alg».proof.Proof.LibConcatPair
import Idealize.ShloMosaic.Lib.StableHlo.Run
import Idealize.ShloMosaic.Lib.Pipeline.Value
import Idealize.ShloMosaic.Lib.ValueIdx
import Idealize.ShloMosaic.Lib.ValueLayout

noncomputable section

namespace Cert.GatedCell.Prep

open Cert.KernelIdeal Cert.KernelIdeal.Gen Cert.GatedCell
open Idealize.ShloMosaic Idealize.ShloMosaic.TcCoe Idealize.SL.Sem Idealize.ShloMosaic.ValueIdx

variable (m : (ℓ : Loc nD τ sig) → Buf (Elt Ideal) ℓ) (c : Dev nD)

/-- The argument arrays, as the launch memory holds them. -/
abbrev aX : Mat 16384 512 := m ((c : Thread nD τ).loc main_arg0)
abbrev aH : Mat 16384 1024 := m ((c : Thread nD τ).loc main_arg1)
abbrev aN : Mat 16384 1024 := m ((c : Thread nD τ).loc main_arg2)
abbrev aWg : Mat 1536 1024 := m ((c : Thread nD τ).loc main_arg3)
abbrev aBg : Row 1024 := m ((c : Thread nD τ).loc main_arg4)
abbrev aWr : Mat 1536 1024 := m ((c : Thread nD τ).loc main_arg5)
abbrev aBr : Row 1024 := m ((c : Thread nD τ).loc main_arg6)
abbrev aWy : Mat 1536 512 := m ((c : Thread nD τ).loc main_arg7)
abbrev aBy : Row 512 := m ((c : Thread nD τ).loc main_arg8)
abbrev aWo : Mat 1536 512 := m ((c : Thread nD τ).loc main_arg9)
abbrev aBo : Row 512 := m ((c : Thread nD τ).loc main_arg10)

/-- The gate network's input stretch. -/
theorem gateWx (k : Fin 512) (q : Fin 1024) : (V m c main_v0 : S512x1024.Idx → EReal) (ix2 k q) = aWg m c (ix2 (lo k) q) := by
  have e : (V m c main_v0 : S512x1024.Idx → EReal)
      = extractStridedSlice S512x1024 ![0, 0] (aWg m c) Facts₀.slices_S1536x1024_S512x1024_0_0 := by
    dsimp only [V, hostOps0]
    after_results
  rw [e]
  exact slice2_axis0_apply 0 _ _ k q (lo k) (Nat.zero_add _).symm

/-- The gate network's state stretch. -/
theorem gateWh (k : Fin 1024) (q : Fin 1024) : (V m c main_v1 : S1024x1024.Idx → EReal) (ix2 k q) = aWg m c (ix2 (hi k) q) := by
  have e : (V m c main_v1 : S1024x1024.Idx → EReal)
      = extractStridedSlice S1024x1024 ![512, 0] (aWg m c) Facts₀.slices_S1536x1024_S1024x1024_512_0 := by
    dsimp only [V, hostOps0]
    after_results
  rw [e]
  exact slice2_axis0_apply 512 _ _ k q (hi k) rfl

/-- The gate network's bias row. -/
theorem gateB (q : Fin 1024) : (V m c main_v2 : S1x1024.Idx → EReal) (ix2 (0 : Fin 1) q) = aBg m c (ix1 q) := by
  have e : (V m c main_v2 : S1x1024.Idx → EReal) = shapeCast S1x1024 (aBg m c) Facts₀.shapeCasts_S1024_S1x1024 := by
    dsimp only [V, hostOps0]
    after_results
    rfl
  rw [e]
  exact shapeCast_a_1a_apply _ _ 0 q

/-- The candidate network's input stretch. -/
theorem candWx (k : Fin 512) (q : Fin 1024) : (V m c main_v4 : S512x1024.Idx → EReal) (ix2 k q) = aWr m c (ix2 (lo k) q) := by
  have e : (V m c main_v4 : S512x1024.Idx → EReal)
      = extractStridedSlice S512x1024 ![0, 0] (aWr m c) Facts₀.slices_S1536x1024_S512x1024_0_0 := by
    dsimp only [V, hostOps0]
    first | (after_results; done) | (after_results; rfl)
  rw [e]
  exact slice2_axis0_apply 0 _ _ k q (lo k) (Nat.zero_add _).symm

/-- The candidate network's state stretch. -/
theorem candWh (k : Fin 1024) (q : Fin 1024) : (V m c main_v6 : S1024x1024.Idx → EReal) (ix2 k q) = aWr m c (ix2 (hi k) q) := by
  have e : (V m c main_v6 : S1024x1024.Idx → EReal)
      = extractStridedSlice S1024x1024 ![512, 0] (aWr m c) Facts₀.slices_S1536x1024_S1024x1024_512_0 := by
    dsimp only [V, hostOps0]
    first | (after_results; done) | (after_results; rfl)
  rw [e]
  exact slice2_axis0_apply 512 _ _ k q (hi k) rfl

/-- The candidate network's bias row. -/
theorem candB (q : Fin 1024) : (V m c main_v8 : S1x1024.Idx → EReal) (ix2 (0 : Fin 1) q) = aBr m c (ix1 q) := by
  have e : (V m c main_v8 : S1x1024.Idx → EReal)
      = shapeCast S1x1024 (aBr m c) Facts₀.shapeCasts_S1024_S1x1024 := by
    dsimp only [V, hostOps0]
    first | (after_results; done) | (after_results; rfl)
  rw [e]
  exact shapeCast_a_1a_apply _ _ 0 q

/-- The fused heads' input stretch: as a term of the argument arrays. -/
theorem headWx_eq : (V m c main_v14 : S512x1024.Idx → EReal)
    = concatenate S512x1024 1
        [⟨S512x512, extractStridedSlice S512x512 ![0, 0] (aWy m c) Facts₀.slices_S1536x512_S512x512_0_0⟩,
         ⟨S512x512, extractStridedSlice S512x512 ![0, 0] (aWo m c) Facts₀.slices_S1536x512_S512x512_0_0⟩]
        Facts₀.concatenates_S512x512_S512x512_S512x1024_d1 := by
  dsimp only [V, hostOps0]
  first | (after_results; done) | (after_results; rfl)

/-- Its first head's columns. -/
theorem headWxY (k : Fin 512) (q : Fin 512) (qy : Fin 1024) (hy : q.val = qy.val) :
    (V m c main_v14 : S512x1024.Idx → EReal) (ix2 k qy) = aWy m c (ix2 (lo k) q) := by
  rw [headWx_eq]
  refine (Cert.Lib.ConcatPair.cols_left _ _ _ k qy q hy).trans ?_
  exact slice2_axis0_apply 0 _ _ k q (lo k) (Nat.zero_add _).symm

/-- Its second head's columns. -/
theorem headWxO (k : Fin 512) (q : Fin 512) (qo : Fin 1024) (ho : q.val + 512 = qo.val) :
    (V m c main_v14 : S512x1024.Idx → EReal) (ix2 k qo) = aWo m c (ix2 (lo k) q) := by
  rw [headWx_eq]
  refine (Cert.Lib.ConcatPair.cols_right _ _ _ k qo q ho).trans ?_
  exact slice2_axis0_apply 0 _ _ k q (lo k) (Nat.zero_add _).symm

/-- The fused heads' state stretch. -/
theorem headWh_eq : (V m c main_v16 : S1024x1024.Idx → EReal)
    = concatenate S1024x1024 1
        [⟨S1024x512, extractStridedSlice S1024x512 ![512, 0] (aWy m c) Facts₀.slices_S1536x512_S1024x512_512_0⟩,
         ⟨S1024x512, extractStridedSlice S1024x512 ![512, 0] (aWo m c) Facts₀.slices_S1536x512_S1024x512_512_0⟩]
        Facts₀.concatenates_S1024x512_S1024x512_S1024x1024_d1 := by
  dsimp only [V, hostOps0]
  first | (after_results; done) | (after_results; rfl)

theorem headWhY (k : Fin 1024) (q : Fin 512) (qy : Fin 1024) (hy : q.val = qy.val) :
    (V m c main_v16 : S1024x1024.Idx → EReal) (ix2 k qy) = aWy m c (ix2 (hi k) q) := by
  rw [headWh_eq]
  refine (Cert.Lib.ConcatPair.cols_left _ _ _ k qy q hy).trans ?_
  exact slice2_axis0_apply 512 _ _ k q (hi k) rfl

theorem headWhO (k : Fin 1024) (q : Fin 512) (qo : Fin 1024) (ho : q.val + 512 = qo.val) :
    (V m c main_v16 : S1024x1024.Idx → EReal) (ix2 k qo) = aWo m c (ix2 (hi k) q) := by
  rw [headWh_eq]
  refine (Cert.Lib.ConcatPair.cols_right _ _ _ k qo q ho).trans ?_
  exact slice2_axis0_apply 512 _ _ k q (hi k) rfl

/-- The fused heads' bias row. -/
theorem headB_eq : (V m c main_v19 : S1x1024.Idx → EReal)
    = shapeCast S1x1024 (concatenate S1024 0 [⟨S512, aBy m c⟩, ⟨S512, aBo m c⟩]
        Facts₀.concatenates_S512_S512_S1024_d0) Facts₀.shapeCasts_S1024_S1x1024 := by
  dsimp only [V, hostOps0]
  first | (after_results; done) | (after_results; rfl)

theorem headBY (q : Fin 512) (qy : Fin 1024) (hy : q.val = qy.val) :
    (V m c main_v19 : S1x1024.Idx → EReal) (ix2 (0 : Fin 1) qy) = aBy m c (ix1 q) := by
  rw [headB_eq]
  refine (shapeCast_a_1a_apply _ _ 0 qy).trans ?_
  exact Cert.Lib.ConcatPair.vec_left _ _ _ qy q hy

theorem headBO (q : Fin 512) (qo : Fin 1024) (ho : q.val + 512 = qo.val) :
    (V m c main_v19 : S1x1024.Idx → EReal) (ix2 (0 : Fin 1) qo) = aBo m c (ix1 q) := by
  rw [headB_eq]
  refine (shapeCast_a_1a_apply _ _ 0 qo).trans ?_
  exact Cert.Lib.ConcatPair.vec_right _ _ _ qo q ho

end Cert.GatedCell.Prep

end
-- ==== Proof.Blocks.lean ====
/-
  From the tiles to the arrays.

  The launch runs the body at 128 points; point t stages batch rows 128·t … 128·t + 127 of the input, the state and the
  noise, and every weight window whole, and writes back the same rows of the three result arrays.  The rows of a tile are
  therefore the batch rows ρ r = 128·t + r, the body's three stored payloads are rows of the cell's output, state and step
  arrays (the tile lemmas), and since every batch row belongs to the tile row / 128, the blocks cover each result array:
  after the run the three arrays are the cell's.
-/
import proofs.«169552_j84018150245162_2_alg».proof.Proof.Gen.KernelIdeal.Value
import proofs.«169552_j84018150245162_2_alg».proof.Proof.Tile
import proofs.«169552_j84018150245162_2_alg».proof.Proof.HostPrep
import Idealize.ShloMosaic.Lib.Pipeline.Value

noncomputable section

namespace Cert.GatedCell.Blocks

open Cert.KernelIdeal Cert.KernelIdeal.Gen Cert.GatedCell Cert.GatedCell.Tile Cert.GatedCell.Prep
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (g : Dev nD → PrngReg)

theorem hz : (![0, 0] : Fin 2 → Nat) = fun _ => 0 := funext fun a => by fin_cases a <;> rfl

/-- The row-blocked windows (the three batch inputs and the three results) are at block (t, 0) at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ True :=
  (by decide +kernel : ∀ t : Fin grid0.N, _)

/-- The weight and bias windows stay at block (0, 0). -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- The batch row of tile row r at point t. -/
def rowOf (t : Fin cfg0.N) (r : Fin 128) : Fin 16384 :=
  ⟨128 * t.val + r.val, by have := t.isLt; have hN : cfg0.N = 128 := N_0; have := r.isLt; omega⟩

/-- Window 0's block at point t holds batch rows 128·t … 128·t + 127 of its argument. -/
theorem blkX (c : Dev nD) (t : Fin cfg0.N) (r : Fin 128) (k : Fin 512) :
    (iblk m c 0 t : FVec Ideal S128x512 .f32) (ix2 r k) = aX m c (ix2 (rowOf t r) k) := by
  obtain ⟨e0, e1, -⟩ := idx_rows t
  unfold iblk
  rw [View.read_apply]
  show V m c main_arg0 _ = _
  rw [V_main_arg0]
  refine congrArg (aX m c) (funext fun a => Fin.ext ?_)
  match a with
  | ⟨0, _⟩ => show win0_0.index t (0 : Fin 2) * 128 + 1 * r.val = 128 * t.val + r.val; rw [e0]; omega
  | ⟨1, _⟩ => show win0_0.index t (1 : Fin 2) * 512 + 1 * k.val = k.val; rw [e1]; omega

/-- Window 1's block at point t holds batch rows 128·t … 128·t + 127 of its argument. -/
theorem blkH (c : Dev nD) (t : Fin cfg0.N) (r : Fin 128) (k : Fin 1024) :
    (iblk m c 1 t : FVec Ideal S128x1024 .f32) (ix2 r k) = aH m c (ix2 (rowOf t r) k) := by
  obtain ⟨-, -, e0, e1, -⟩ := idx_rows t
  unfold iblk
  rw [View.read_apply]
  show V m c main_arg1 _ = _
  rw [V_main_arg1]
  refine congrArg (aH m c) (funext fun a => Fin.ext ?_)
  match a with
  | ⟨0, _⟩ => show win0_1.index t (0 : Fin 2) * 128 + 1 * r.val = 128 * t.val + r.val; rw [e0]; omega
  | ⟨1, _⟩ => show win0_1.index t (1 : Fin 2) * 1024 + 1 * k.val = k.val; rw [e1]; omega

/-- Window 2's block at point t holds batch rows 128·t … 128·t + 127 of its argument. -/
theorem blkN (c : Dev nD) (t : Fin cfg0.N) (r : Fin 128) (k : Fin 1024) :
    (iblk m c 2 t : FVec Ideal S128x1024 .f32) (ix2 r k) = aN m c (ix2 (rowOf t r) k) := by
  obtain ⟨-, -, -, -, e0, e1, -⟩ := idx_rows t
  unfold iblk
  rw [View.read_apply]
  show V m c main_arg2 _ = _
  rw [V_main_arg2]
  refine congrArg (aN m c) (funext fun a => Fin.ext ?_)
  match a with
  | ⟨0, _⟩ => show win0_2.index t (0 : Fin 2) * 128 + 1 * r.val = 128 * t.val + r.val; rw [e0]; omega
  | ⟨1, _⟩ => show win0_2.index t (1 : Fin 2) * 1024 + 1 * k.val = k.val; rw [e1]; omega

/-- Window 3's block is its whole array at every point. -/
theorem blkUx (c : Dev nD) (t : Fin cfg0.N) (k : Fin 512) (q : Fin 1024) :
    (iblk m c 3 t : FVec Ideal S512x1024 .f32) (ix2 k q) = (V m c main_v0 : S512x1024.Idx → EReal) (ix2 k q) := by
  obtain ⟨e0, e1, -⟩ := idx_whole t
  unfold iblk
  rw [View.read_apply]
  show V m c main_v0 _ = _
  refine congrArg (V m c main_v0 : S512x1024.Idx → EReal) (funext fun a => Fin.ext ?_)
  match a with
  | ⟨0, _⟩ => show win0_3.index t (0 : Fin 2) * 512 + 1 * k.val = k.val; rw [e0]; omega
  | ⟨1, _⟩ => show win0_3.index t (1 : Fin 2) * 1024 + 1 * q.val = q.val; rw [e1]; omega

/-- Window 4's block is its whole array at every point. -/
theorem blkUh (c : Dev nD) (t : Fin cfg0.N) (k : Fin 1024) (q : Fin 1024) :
    (iblk m c 4 t : FVec Ideal S1024x1024 .f32) (ix2 k q) = (V m c main_v1 : S1024x1024.Idx → EReal) (ix2 k q) := by
  obtain ⟨-, -, e0, e1, -⟩ := idx_whole t
  unfold iblk
  rw [View.read_apply]
  show V m c main_v1 _ = _
  refine congrArg (V m c main_v1 : S1024x1024.Idx → EReal) (funext fun a => Fin.ext ?_)
  match a with
  | ⟨0, _⟩ => show win0_4.index t (0 : Fin 2) * 1024 + 1 * k.val = k.val; rw [e0]; omega
  | ⟨1, _⟩ => show win0_4.index t (1 : Fin 2) * 1024 + 1 * q.val = q.val; rw [e1]; omega

/-- Window 5's block is its whole array at every point. -/
theorem blkUb (c : Dev nD) (t : Fin cfg0.N) (k : Fin 1) (q : Fin 1024) :
    (iblk m c 5 t : FVec Ideal S1x1024 .f32) (ix2 k q) = (V m c main_v2 : S1x1024.Idx → EReal) (ix2 k q) := by
  obtain ⟨-, -, -, -, e0, e1, -⟩ := idx_whole t
  unfold iblk
  rw [View.read_apply]
  show V m c main_v2 _ = _
  refine congrArg (V m c main_v2 : S1x1024.Idx → EReal) (funext fun a => Fin.ext ?_)
  match a with
  | ⟨0, _⟩ => show win0_5.index t (0 : Fin 2) * 1 + 1 * k.val = k.val; rw [e0]; omega
  | ⟨1, _⟩ => show win0_5.index t (1 : Fin 2) * 1024 + 1 * q.val = q.val; rw [e1]; omega

/-- Window 6's block is its whole array at every point. -/
theorem blkVx (c : Dev nD) (t : Fin cfg0.N) (k : Fin 512) (q : Fin 1024) :
    (iblk m c 6 t : FVec Ideal S512x1024 .bf16) (ix2 k q) = (V m c main_v4 : S512x1024.Idx → EReal) (ix2 k q) := by
  obtain ⟨-, -, -, -, -, -, e0, e1, -⟩ := idx_whole t
  unfold iblk
  rw [View.read_apply]
  show V m c main_v4 _ = _
  refine congrArg (V m c main_v4 : S512x1024.Idx → EReal) (funext fun a => Fin.ext ?_)
  match a with
  | ⟨0, _⟩ => show win0_6.index t (0 : Fin 2) * 512 + 1 * k.val = k.val; rw [e0]; omega
  | ⟨1, _⟩ => show win0_6.index t (1 : Fin 2) * 1024 + 1 * q.val = q.val; rw [e1]; omega

/-- Window 7's block is its whole array at every point. -/
theorem blkVh (c : Dev nD) (t : Fin cfg0.N) (k : Fin 1024) (q : Fin 1024) :
    (iblk m c 7 t : FVec Ideal S1024x1024 .bf16) (ix2 k q) = (V m c main_v6 : S1024x1024.Idx → EReal) (ix2 k q) := by
  obtain ⟨-, -, -, -, -, -, -, -, e0, e1, -⟩ := idx_whole t
  unfold iblk
  rw [View.read_apply]
  show V m c main_v6 _ = _
  refine congrArg (V m c main_v6 : S1024x1024.Idx → EReal) (funext fun a => Fin.ext ?_)
  match a with
  | ⟨0, _⟩ => show win0_7.index t (0 : Fin 2) * 1024 + 1 * k.val = k.val; rw [e0]; omega
  | ⟨1, _⟩ => show win0_7.index t (1 : Fin 2) * 1024 + 1 * q.val = q.val; rw [e1]; omega

/-- Window 8's block is its whole array at every point. -/
theorem blkVb (c : Dev nD) (t : Fin cfg0.N) (k : Fin 1) (q : Fin 1024) :
    (iblk m c 8 t : FVec Ideal S1x1024 .bf16) (ix2 k q) = (V m c main_v8 : S1x1024.Idx → EReal) (ix2 k q) := by
  obtain ⟨-, -, -, -, -, -, -, -, -, -, e0, e1, -⟩ := idx_whole t
  unfold iblk
  rw [View.read_apply]
  show V m c main_v8 _ = _
  refine congrArg (V m c main_v8 : S1x1024.Idx → EReal) (funext fun a => Fin.ext ?_)
  match a with
  | ⟨0, _⟩ => show win0_8.index t (0 : Fin 2) * 1 + 1 * k.val = k.val; rw [e0]; omega
  | ⟨1, _⟩ => show win0_8.index t (1 : Fin 2) * 1024 + 1 * q.val = q.val; rw [e1]; omega

/-- Window 9's block is its whole array at every point. -/
theorem blkZx (c : Dev nD) (t : Fin cfg0.N) (k : Fin 512) (q : Fin 1024) :
    (iblk m c 9 t : FVec Ideal S512x1024 .bf16) (ix2 k q) = (V m c main_v14 : S512x1024.Idx → EReal) (ix2 k q) := by
  obtain ⟨-, -, -, -, -, -, -, -, -, -, -, -, e0, e1, -⟩ := idx_whole t
  unfold iblk
  rw [View.read_apply]
  show V m c main_v14 _ = _
  refine congrArg (V m c main_v14 : S512x1024.Idx → EReal) (funext fun a => Fin.ext ?_)
  match a with
  | ⟨0, _⟩ => show win0_9.index t (0 : Fin 2) * 512 + 1 * k.val = k.val; rw [e0]; omega
  | ⟨1, _⟩ => show win0_9.index t (1 : Fin 2) * 1024 + 1 * q.val = q.val; rw [e1]; omega

/-- Window 10's block is its whole array at every point. -/
theorem blkZh (c : Dev nD) (t : Fin cfg0.N) (k : Fin 1024) (q : Fin 1024) :
    (iblk m c 10 t : FVec Ideal S1024x1024 .bf16) (ix2 k q) = (V m c main_v16 : S1024x1024.Idx → EReal) (ix2 k q) := by
  obtain ⟨-, -, -, -, -, -, -, -, -, -, -, -, -, -, e0, e1, -⟩ := idx_whole t
  unfold iblk
  rw [View.read_apply]
  show V m c main_v16 _ = _
  refine congrArg (V m c main_v16 : S1024x1024.Idx → EReal) (funext fun a => Fin.ext ?_)
  match a with
  | ⟨0, _⟩ => show win0_10.index t (0 : Fin 2) * 1024 + 1 * k.val = k.val; rw [e0]; omega
  | ⟨1, _⟩ => show win0_10.index t (1 : Fin 2) * 1024 + 1 * q.val = q.val; rw [e1]; omega

/-- Window 11's block is its whole array at every point. -/
theorem blkZb (c : Dev nD) (t : Fin cfg0.N) (k : Fin 1) (q : Fin 1024) :
    (iblk m c 11 t : FVec Ideal S1x1024 .bf16) (ix2 k q) = (V m c main_v19 : S1x1024.Idx → EReal) (ix2 k q) := by
  obtain ⟨-, -, -, -, -, -, -, -, -, -, -, -, -, -, -, -, e0, e1⟩ := idx_whole t
  unfold iblk
  rw [View.read_apply]
  show V m c main_v19 _ = _
  refine congrArg (V m c main_v19 : S1x1024.Idx → EReal) (funext fun a => Fin.ext ?_)
  match a with
  | ⟨0, _⟩ => show win0_11.index t (0 : Fin 2) * 1 + 1 * k.val = k.val; rw [e0]; omega
  | ⟨1, _⟩ => show win0_11.index t (1 : Fin 2) * 1024 + 1 * q.val = q.val; rw [e1]; omega

/-- At point t the body's twelve input blocks hold what the tile lemmas ask. -/
theorem holds (c : Dev nD) (t : Fin cfg0.N) :
    Holds (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (aX m c) (aH m c) (aN m c) (aWg m c) (aBg m c) (aWr m c) (aBr m c) (aWy m c) (aBy m c) (aWo m c) (aBo m c) (rowOf t) where
  hX := blkX m c t
  hH := blkH m c t
  hN := blkN m c t
  hUx := fun k q => (blkUx m c t k q).trans (gateWx m c k q)
  hUh := fun k q => (blkUh m c t k q).trans (gateWh m c k q)
  hβ := fun q => (blkUb m c t 0 q).trans (gateB m c q)
  hVx := fun k q => (blkVx m c t k q).trans (candWx m c k q)
  hVh := fun k q => (blkVh m c t k q).trans (candWh m c k q)
  hγ := fun q => (blkVb m c t 0 q).trans (candB m c q)
  hZxY := fun k q => (blkZx m c t k (colY q)).trans (headWxY m c k q (colY q) rfl)
  hZxO := fun k q => (blkZx m c t k (colO q)).trans (headWxO m c k q (colO q) (Nat.add_comm _ _))
  hZhY := fun k q => (blkZh m c t k (colY q)).trans (headWhY m c k q (colY q) rfl)
  hZhO := fun k q => (blkZh m c t k (colO q)).trans (headWhO m c k q (colO q) (Nat.add_comm _ _))
  hζY := fun q => (blkZb m c t 0 (colY q)).trans (headBY m c q (colY q) rfl)
  hζO := fun q => (blkZb m c t 0 (colO q)).trans (headBO m c q (colO q) (Nat.add_comm _ _))

/-- WHAT POINT t WRITES BACK to window 12 is block t of the cell's array. -/
theorem flushed12_eq (c : Dev nD) (t : Fin cfg0.N) :
    (dats m 0 c).flushed 12 t = ((cfg0.win 12).blk t).view.read (Elt Ideal) (outArr (aX m c) (aH m c) (aN m c) (aWg m c) (aBg m c) (aWr m c) (aBr m c) (aWy m c) (aBy m c) (aWo m c) (aBo m c) : S16384x512.Idx → EReal) := by
  rw [Value.flushed12]
  unfold out0_12
  rw [View.canon_unit_zero hz]
  simp only [View.ld_unit_zero (S := S128x512) hz, View.ld_unit_zero (S := S128x1024) hz, View.ld_unit_zero (S := S512x1024) hz,
    View.ld_unit_zero (S := S1024x1024) hz, View.ld_unit_zero (S := S1x1024) hz]
  obtain ⟨-, -, -, -, -, -, e0, e1, -⟩ := idx_rows t
  funext j
  refine outArr_tile (holds m c t) j _ ?_ ?_
  · show win0_12.index t (0 : Fin 2) * 128 + 1 * (j 0).val = 128 * t.val + (j 0).val
    rw [e0]; omega
  · show win0_12.index t (1 : Fin 2) * 512 + 1 * (j 1).val = (j 1).val
    rw [e1]; omega

/-- An index of the array is in point t's block iff each coordinate is in the block's range. -/
theorem mem_blk12 (t : Fin cfg0.N) (i : S16384x512.Idx) :
    i ∈ ((cfg0.win 12).blk t).view.set ↔ ∀ a : Fin 2, win0_12.index t a * S128x512.size a ≤ (i a).val ∧ (i a).val < win0_12.index t a * S128x512.size a + S128x512.size a := by
  show i ∈ ((View.whole main_v20_0).slice (win0_12.rect t)).set ↔ _
  rw [View.set_slice_whole, Rect.mem_set_unit]
  exact Iff.rfl

/-- Every index of the array lies in the block of the point that owns its batch row: point (row / 128). -/
theorem cover12 (i : S16384x512.Idx) : ∃ t : Fin cfg0.N, (cfg0.win 12).flush t = true ∧ i ∈ ((cfg0.win 12).blk t).view.set := by
  have hi0 : (i 0).val < 16384 := (i 0).isLt
  have hi1 : (i 1).val < 512 := (i 1).isLt
  have hN : cfg0.N = 128 := N_0
  obtain ⟨t, ht⟩ : ∃ t : Fin cfg0.N, t.val = (i 0).val / 128 := ⟨⟨(i 0).val / 128, by rw [hN]; omega⟩, rfl⟩
  obtain ⟨-, -, -, -, -, -, e0, e1, -⟩ := idx_rows t
  refine ⟨t, flush0_12 t, ?_⟩
  rw [mem_blk12]
  intro a
  match a with
  | ⟨0, _⟩ => show win0_12.index t (0 : Fin 2) * 128 ≤ (i 0).val ∧ (i 0).val < win0_12.index t (0 : Fin 2) * 128 + 128; rw [e0, ht]; omega
  | ⟨1, _⟩ => show win0_12.index t (1 : Fin 2) * 512 ≤ (i 1).val ∧ (i 1).val < win0_12.index t (1 : Fin 2) * 512 + 512; rw [e1]; omega

/-- THE ARRAY after the run. -/
theorem final12 (c : Dev nD) : (dats m 0 c).arrAt 12 cfg0.N = (outArr (aX m c) (aH m c) (aN m c) (aWg m c) (aBg m c) (aWr m c) (aBr m c) (aWy m c) (aBy m c) (aWo m c) (aBo m c) : S16384x512.Idx → EReal) :=
  (dats m 0 c).arrAt_eq_of_cover 12 _ (fun t _ => flushed12_eq m c t) cover12

/-- WHAT POINT t WRITES BACK to window 13 is block t of the cell's array. -/
theorem flushed13_eq (c : Dev nD) (t : Fin cfg0.N) :
    (dats m 0 c).flushed 13 t = ((cfg0.win 13).blk t).view.read (Elt Ideal) (stateArr (aX m c) (aH m c) (aN m c) (aWg m c) (aBg m c) (aWr m c) (aBr m c) : S16384x1024.Idx → EReal) := by
  rw [Value.flushed13]
  unfold out0_13
  rw [View.canon_unit_zero hz]
  simp only [View.ld_unit_zero (S := S128x512) hz, View.ld_unit_zero (S := S128x1024) hz, View.ld_unit_zero (S := S512x1024) hz,
    View.ld_unit_zero (S := S1024x1024) hz, View.ld_unit_zero (S := S1x1024) hz]
  obtain ⟨-, -, -, -, -, -, -, -, e0, e1, -⟩ := idx_rows t
  funext j
  refine stateArr_tile (holds m c t) j _ ?_ ?_
  · show win0_13.index t (0 : Fin 2) * 128 + 1 * (j 0).val = 128 * t.val + (j 0).val
    rw [e0]; omega
  · show win0_13.index t (1 : Fin 2) * 1024 + 1 * (j 1).val = (j 1).val
    rw [e1]; omega

/-- An index of the array is in point t's block iff each coordinate is in the block's range. -/
theorem mem_blk13 (t : Fin cfg0.N) (i : S16384x1024.Idx) :
    i ∈ ((cfg0.win 13).blk t).view.set ↔ ∀ a : Fin 2, win0_13.index t a * S128x1024.size a ≤ (i a).val ∧ (i a).val < win0_13.index t a * S128x1024.size a + S128x1024.size a := by
  show i ∈ ((View.whole main_v20_1).slice (win0_13.rect t)).set ↔ _
  rw [View.set_slice_whole, Rect.mem_set_unit]
  exact Iff.rfl

/-- Every index of the array lies in the block of the point that owns its batch row: point (row / 128). -/
theorem cover13 (i : S16384x1024.Idx) : ∃ t : Fin cfg0.N, (cfg0.win 13).flush t = true ∧ i ∈ ((cfg0.win 13).blk t).view.set := by
  have hi0 : (i 0).val < 16384 := (i 0).isLt
  have hi1 : (i 1).val < 1024 := (i 1).isLt
  have hN : cfg0.N = 128 := N_0
  obtain ⟨t, ht⟩ : ∃ t : Fin cfg0.N, t.val = (i 0).val / 128 := ⟨⟨(i 0).val / 128, by rw [hN]; omega⟩, rfl⟩
  obtain ⟨-, -, -, -, -, -, -, -, e0, e1, -⟩ := idx_rows t
  refine ⟨t, flush0_13 t, ?_⟩
  rw [mem_blk13]
  intro a
  match a with
  | ⟨0, _⟩ => show win0_13.index t (0 : Fin 2) * 128 ≤ (i 0).val ∧ (i 0).val < win0_13.index t (0 : Fin 2) * 128 + 128; rw [e0, ht]; omega
  | ⟨1, _⟩ => show win0_13.index t (1 : Fin 2) * 1024 ≤ (i 1).val ∧ (i 1).val < win0_13.index t (1 : Fin 2) * 1024 + 1024; rw [e1]; omega

/-- THE ARRAY after the run. -/
theorem final13 (c : Dev nD) : (dats m 0 c).arrAt 13 cfg0.N = (stateArr (aX m c) (aH m c) (aN m c) (aWg m c) (aBg m c) (aWr m c) (aBr m c) : S16384x1024.Idx → EReal) :=
  (dats m 0 c).arrAt_eq_of_cover 13 _ (fun t _ => flushed13_eq m c t) cover13

/-- WHAT POINT t WRITES BACK to window 14 is block t of the cell's array. -/
theorem flushed14_eq (c : Dev nD) (t : Fin cfg0.N) :
    (dats m 0 c).flushed 14 t = ((cfg0.win 14).blk t).view.read (Elt Ideal) (stepArr (aX m c) (aH m c) (aN m c) (aWg m c) (aBg m c) : S16384x1024.Idx → EReal) := by
  rw [Value.flushed14]
  unfold out0_14
  rw [View.canon_unit_zero hz]
  simp only [View.ld_unit_zero (S := S128x512) hz, View.ld_unit_zero (S := S128x1024) hz, View.ld_unit_zero (S := S512x1024) hz,
    View.ld_unit_zero (S := S1024x1024) hz, View.ld_unit_zero (S := S1x1024) hz]
  obtain ⟨-, -, -, -, -, -, -, -, -, -, e0, e1, -⟩ := idx_rows t
  funext j
  refine step_tile (holds m c t) j _ ?_ ?_
  · show win0_14.index t (0 : Fin 2) * 128 + 1 * (j 0).val = 128 * t.val + (j 0).val
    rw [e0]; omega
  · show win0_14.index t (1 : Fin 2) * 1024 + 1 * (j 1).val = (j 1).val
    rw [e1]; omega

/-- An index of the array is in point t's block iff each coordinate is in the block's range. -/
theorem mem_blk14 (t : Fin cfg0.N) (i : S16384x1024.Idx) :
    i ∈ ((cfg0.win 14).blk t).view.set ↔ ∀ a : Fin 2, win0_14.index t a * S128x1024.size a ≤ (i a).val ∧ (i a).val < win0_14.index t a * S128x1024.size a + S128x1024.size a := by
  show i ∈ ((View.whole main_v20_2).slice (win0_14.rect t)).set ↔ _
  rw [View.set_slice_whole, Rect.mem_set_unit]
  exact Iff.rfl

/-- Every index of the array lies in the block of the point that owns its batch row: point (row / 128). -/
theorem cover14 (i : S16384x1024.Idx) : ∃ t : Fin cfg0.N, (cfg0.win 14).flush t = true ∧ i ∈ ((cfg0.win 14).blk t).view.set := by
  have hi0 : (i 0).val < 16384 := (i 0).isLt
  have hi1 : (i 1).val < 1024 := (i 1).isLt
  have hN : cfg0.N = 128 := N_0
  obtain ⟨t, ht⟩ : ∃ t : Fin cfg0.N, t.val = (i 0).val / 128 := ⟨⟨(i 0).val / 128, by rw [hN]; omega⟩, rfl⟩
  obtain ⟨-, -, -, -, -, -, -, -, -, -, e0, e1, -⟩ := idx_rows t
  refine ⟨t, flush0_14 t, ?_⟩
  rw [mem_blk14]
  intro a
  match a with
  | ⟨0, _⟩ => show win0_14.index t (0 : Fin 2) * 128 ≤ (i 0).val ∧ (i 0).val < win0_14.index t (0 : Fin 2) * 128 + 128; rw [e0, ht]; omega
  | ⟨1, _⟩ => show win0_14.index t (1 : Fin 2) * 1024 ≤ (i 1).val ∧ (i 1).val < win0_14.index t (1 : Fin 2) * 1024 + 1024; rw [e1]; omega

/-- THE ARRAY after the run. -/
theorem final14 (c : Dev nD) : (dats m 0 c).arrAt 14 cfg0.N = (stepArr (aX m c) (aH m c) (aN m c) (aWg m c) (aBg m c) : S16384x1024.Idx → EReal) :=
  (dats m 0 c).arrAt_eq_of_cover 14 _ (fun t _ => flushed14_eq m c t) cover14

/-- THE KERNEL'S RUN, READ: the three result arrays end at the cell's output, state and step arrays of the argument arrays,
    and the arguments end unchanged. -/
theorem run : θ_run defs (onTc (τ := τ) (main (F := Ideal))) ⟨m, fun _ => 0, g⟩ fun r => ∀ c : Dev nD,
      r.2.mem ((c : Thread nD τ).loc main_v20_0) = (outArr (aX m c) (aH m c) (aN m c) (aWg m c) (aBg m c) (aWr m c) (aBr m c) (aWy m c) (aBy m c) (aWo m c) (aBo m c) : S16384x512.Idx → EReal)
      ∧ r.2.mem ((c : Thread nD τ).loc main_v20_1) = (stateArr (aX m c) (aH m c) (aN m c) (aWg m c) (aBg m c) (aWr m c) (aBr m c) : S16384x1024.Idx → EReal)
      ∧ r.2.mem ((c : Thread nD τ).loc main_v20_2) = (stepArr (aX m c) (aH m c) (aN m c) (aWg m c) (aBg m c) : S16384x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final12 m c), (h c).2.1.trans (final13 m c),
      (h c).2.2.1.trans (final14 m c), (h c).2.2.2⟩)
    (Cert.KernelIdeal.Value.run_blocks m g)

end Cert.GatedCell.Blocks

end
-- ==== Proof.RefSide.lean ====
/-
  The reference computes the gated cell's three arrays.

  The reference joins each batch row's input and state into one row of length 1536 and contracts it against a whole weight
  matrix.  At position lo k the joined row reads the input at k, at position hi k the state at k, so by `sum_join` the
  contraction is the cell's affine map `pre`.  Its bias is a vector broadcast first to 1 × n and then over the batch rows:
  at (p, q) it reads the vector at q.  The gate, the state and the heads then read entry by entry exactly as the cell's,
  the reference's logistic spelt 1 / (1 + e^(−o)), which is the logistic on the extended reals once the word 1.0 is read as
  the number 1.
-/
import proofs.«169552_j84018150245162_2_alg».proof.Proof.Gen.ReferenceIdeal.Read
import proofs.«169552_j84018150245162_2_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

namespace Cert.GatedCell.Ref

open Cert.ReferenceIdeal Cert.ReferenceIdeal.Gen Cert.ReferenceIdeal.Read Cert.GatedCell
open Idealize.ShloMosaic Idealize.ShloMosaic.ValueIdx

/-- The joined row at a position of its first stretch is the input there. -/
theorem joined_lo (x : Mat 16384 512) (h : Mat 16384 1024) (p : Fin 16384) (k : Fin 512) :
    concatenate S16384x1536 1 [⟨S16384x512, x⟩, ⟨S16384x1024, h⟩] Facts₀.concatenates_S16384x512_S16384x1024_S16384x1536_d1 (ix2 p (lo k))
      = x (ix2 p k) :=
  concatenate_pair_apply_left (1 : Fin 2) x h _ (ix2 p (lo k)) rfl (ix2 p k) (fun b => match b with
    | ⟨0, _⟩ => rfl
    | ⟨1, _⟩ => rfl)

/-- The joined row at a position of its second stretch is the state there. -/
theorem joined_hi (x : Mat 16384 512) (h : Mat 16384 1024) (p : Fin 16384) (k : Fin 1024) :
    concatenate S16384x1536 1 [⟨S16384x512, x⟩, ⟨S16384x1024, h⟩] Facts₀.concatenates_S16384x512_S16384x1024_S16384x1536_d1 (ix2 p (hi k))
      = h (ix2 p k) :=
  concatenate_pair_apply_right (1 : Fin 2) x h _ (ix2 p (hi k)) rfl rfl (ix2 p k) (fun b => match b with
    | ⟨0, _⟩ => fun _ => rfl
    | ⟨1, _⟩ => fun hb => absurd rfl hb) (Nat.add_comm _ _)

/-- THE CONTRACTION OF THE JOINED ROW against a weight matrix is the two stretches' sums. -/
theorem dot_joined {N : Nat} (x : Mat 16384 512) (h : Mat 16384 1024) (W : Mat 1536 N) (p : Fin 16384) (q : Fin N)
    (L : Fin 1536 → S16384x1536.Idx) (R : Fin 1536 → (⟨2, ![1536, N]⟩ : Shape).Idx)
    (hL : ∀ k, L k = ix2 p k) (hR : ∀ k, R k = ix2 k q) :
    ∑ k : Fin 1536, concatenate S16384x1536 1 [⟨S16384x512, x⟩, ⟨S16384x1024, h⟩] Facts₀.concatenates_S16384x512_S16384x1024_S16384x1536_d1 (L k) * W (R k)
      = ∑ k : Fin 512, x (ix2 p k) * W (ix2 (lo k) q) + ∑ k : Fin 1024, h (ix2 p k) * W (ix2 (hi k) q) := by
  rw [sum_join]
  congr 1
  · exact Finset.sum_congr rfl fun k _ => by rw [hL, hR, joined_lo]
  · exact Finset.sum_congr rfl fun k _ => by rw [hL, hR, joined_hi]

variable (x0 : (⟨S16384x512, .f32⟩ : BufTy).Contents (Elt Ideal)) (x1 x2 : (⟨S16384x1024, .f32⟩ : BufTy).Contents (Elt Ideal))
  (x3 : (⟨S1536x1024, .f32⟩ : BufTy).Contents (Elt Ideal)) (x4 : (⟨S1024, .f32⟩ : BufTy).Contents (Elt Ideal))
  (x5 : (⟨S1536x1024, .f32⟩ : BufTy).Contents (Elt Ideal)) (x6 : (⟨S1024, .f32⟩ : BufTy).Contents (Elt Ideal))
  (x7 : (⟨S1536x512, .f32⟩ : BufTy).Contents (Elt Ideal)) (x8 : (⟨S512, .f32⟩ : BufTy).Contents (Elt Ideal))
  (x9 : (⟨S1536x512, .f32⟩ : BufTy).Contents (Elt Ideal)) (x10 : (⟨S512, .f32⟩ : BufTy).Contents (Elt Ideal))

/-- The gate network's pre-activation. -/
theorem preG (p : Fin 16384) (q : Fin 1024) : val_main_v4 (F := Ideal) x0 x1 x3 x4 (ix2 p q) = pre x0 x1 x3 x4 p q := by
  rw [val_main_v4_apply, val_main_v1_apply, val_main_v3_apply, val_main_v2_apply]
  unfold val_main_v0
  rw [dot_joined x0 x1 x3 p q (lidx_main_v1 (ix2 p q)) (ridx_main_v1 (ix2 p q)) (fun k => funext fun a => match a with | ⟨0, _⟩ => rfl | ⟨1, _⟩ => rfl)
    (fun k => funext fun a => match a with | ⟨0, _⟩ => rfl | ⟨1, _⟩ => rfl)]
  have e : idx_main_v2 (idx_main_v3 (ix2 p q)) = ix1 q := funext fun a => match a with | ⟨0, _⟩ => rfl
  rw [e]
  rfl

/-- The gate. -/
theorem gate_ref (p : Fin 16384) (q : Fin 1024) : val_main_v8 (F := Ideal) x0 x1 x2 x3 x4 (ix2 p q) = gate x0 x1 x2 x3 x4 p q := by
  rw [val_main_v8_apply, val_main_v6_apply, val_main_v5_apply, preG, val_main_v7_apply, val_main_cst_apply]
  rfl

/-- THE STEP ARRAY. -/
theorem step_ref : val_main_v11 (F := Ideal) x0 x1 x2 x3 x4 = stepArr x0 x1 x2 x3 x4 := by
  funext i
  obtain ⟨p, q, rfl⟩ : ∃ (p : Fin 16384) (q : Fin 1024), i = ix2 p q := ⟨i 0, i 1, eq_ix2 i⟩
  rw [val_main_v11_apply, val_main_v10_apply, gate_ref, val_main_v9_apply, val_main_cst_0_apply]
  rfl

/-- The candidate network's pre-activation. -/
theorem preR (p : Fin 16384) (q : Fin 1024) : val_main_v15 (F := Ideal) x0 x1 x5 x6 (ix2 p q) = pre x0 x1 x5 x6 p q := by
  rw [val_main_v15_apply, val_main_v12_apply, val_main_v14_apply, val_main_v13_apply]
  unfold val_main_v0
  rw [dot_joined x0 x1 x5 p q (lidx_main_v12 (ix2 p q)) (ridx_main_v12 (ix2 p q)) (fun k => funext fun a => match a with | ⟨0, _⟩ => rfl | ⟨1, _⟩ => rfl)
    (fun k => funext fun a => match a with | ⟨0, _⟩ => rfl | ⟨1, _⟩ => rfl)]
  have e : idx_main_v13 (idx_main_v14 (ix2 p q)) = ix1 q := funext fun a => match a with | ⟨0, _⟩ => rfl
  rw [e]
  rfl

/-- The new state at (p, q). -/
theorem state_ref (p : Fin 16384) (q : Fin 1024) :
    val_main_v21 (F := Ideal) x0 x1 x2 x3 x4 x5 x6 (ix2 p q) = state x0 x1 x2 x3 x4 x5 x6 p q := by
  rw [val_main_v21_apply, val_main_v17_apply, val_main_v20_apply, val_main_v19_apply, val_main_v16_apply, gate_ref, preR,
    val_main_v18_apply, val_main_cst_1_apply]
  rfl

/-- THE STATE ARRAY. -/
theorem stateArr_ref : val_main_v21 (F := Ideal) x0 x1 x2 x3 x4 x5 x6 = stateArr x0 x1 x2 x3 x4 x5 x6 := by
  funext i
  obtain ⟨p, q, rfl⟩ : ∃ (p : Fin 16384) (q : Fin 1024), i = ix2 p q := ⟨i 0, i 1, eq_ix2 i⟩
  exact state_ref x0 x1 x2 x3 x4 x5 x6 p q

/-- The first head's pre-activation, over the joined row of the input and the NEW state. -/
theorem preY (p : Fin 16384) (q : Fin 512) :
    val_main_v26 (F := Ideal) x0 x1 x2 x3 x4 x5 x6 x7 x8 (ix2 p q) = pre x0 (stateArr x0 x1 x2 x3 x4 x5 x6) x7 x8 p q := by
  rw [val_main_v26_apply, val_main_v23_apply, val_main_v25_apply, val_main_v24_apply]
  unfold val_main_v22
  rw [stateArr_ref, dot_joined x0 (stateArr x0 x1 x2 x3 x4 x5 x6) x7 p q (lidx_main_v23 (ix2 p q)) (ridx_main_v23 (ix2 p q)) (fun k => funext fun a => match a with | ⟨0, _⟩ => rfl | ⟨1, _⟩ => rfl)
    (fun k => funext fun a => match a with | ⟨0, _⟩ => rfl | ⟨1, _⟩ => rfl)]
  have e : idx_main_v24 (idx_main_v25 (ix2 p q)) = ix1 q := funext fun a => match a with | ⟨0, _⟩ => rfl
  rw [e]
  rfl

/-- The second head's pre-activation. -/
theorem preO (p : Fin 16384) (q : Fin 512) :
    val_main_v31 (F := Ideal) x0 x1 x2 x3 x4 x5 x6 x9 x10 (ix2 p q) = pre x0 (stateArr x0 x1 x2 x3 x4 x5 x6) x9 x10 p q := by
  rw [val_main_v31_apply, val_main_v28_apply, val_main_v30_apply, val_main_v29_apply]
  unfold val_main_v22
  rw [stateArr_ref, dot_joined x0 (stateArr x0 x1 x2 x3 x4 x5 x6) x9 p q (lidx_main_v28 (ix2 p q)) (ridx_main_v28 (ix2 p q)) (fun k => funext fun a => match a with | ⟨0, _⟩ => rfl | ⟨1, _⟩ => rfl)
    (fun k => funext fun a => match a with | ⟨0, _⟩ => rfl | ⟨1, _⟩ => rfl)]
  have e : idx_main_v29 (idx_main_v30 (ix2 p q)) = ix1 q := funext fun a => match a with | ⟨0, _⟩ => rfl
  rw [e]
  rfl

/-- The word 1.0 is the number 1. -/
theorem oneW_eq : oneW = 1 := IdealRules.sign_bit.ideal_onePat .f32

/-- THE OUTPUT ARRAY. -/
theorem out_ref : val_main_v38 (F := Ideal) x0 x1 x2 x3 x4 x5 x6 x7 x8 x9 x10 = outArr x0 x1 x2 x3 x4 x5 x6 x7 x8 x9 x10 := by
  funext i
  obtain ⟨p, q, rfl⟩ : ∃ (p : Fin 16384) (q : Fin 512), i = ix2 p q := ⟨i 0, i 1, eq_ix2 i⟩
  rw [val_main_v38_apply, val_main_v27_apply, preY, val_main_v37_apply, val_main_v36_apply, val_main_cst_3_apply,
    val_main_v35_apply, val_main_v34_apply, val_main_cst_2_apply, val_main_v33_apply, val_main_v32_apply, preO]
  show Ideal.tanh _ * Ideal.div oneW (oneW + Ideal.exp (-_)) = Ideal.tanh _ * Ideal.logistic _
  rw [oneW_eq]
  rfl

end Cert.GatedCell.Ref

end
-- ==== Proof.lean ====
/-
  The certificate of the gated recurrent cell.

  At the extended reals the kernel and the reference compute one function of the argument arrays, the cell of Proof/Spec.lean:
  the kernel tile by tile over 128 batch rows with every network's weight matrix cut into its input and state stretches
  and the two heads fused side by side (Proof/Payload.lean, Proof/Tile.lean, Proof/HostPrep.lean, Proof/Blocks.lean), the
  reference on whole arrays with the input and the state joined into one row (Proof/RefSide.lean).  The two arrangements
  differ only by how the contraction over the 1536 joined positions is grouped, by changes of float format, which are the
  identity here, and by the spelling of the logistic; no finiteness of the inputs is used.  The three frames are the
  programs' runs; the idealization rewrote nothing, so `preserves` is trivial.
-/
import proofs.«169552_j84018150245162_2_alg».proof.Defs
import proofs.«169552_j84018150245162_2_alg».proof.Proof.Gen.Kernel
import proofs.«169552_j84018150245162_2_alg».proof.Proof.Gen.Kernel.Skeleton
import proofs.«169552_j84018150245162_2_alg».proof.Proof.Gen.Kernel.Launch
import proofs.«169552_j84018150245162_2_alg».proof.Proof.Gen.Kernel.Points
import proofs.«169552_j84018150245162_2_alg».proof.Proof.Gen.Kernel.Frame
import proofs.«169552_j84018150245162_2_alg».proof.Proof.Gen.KernelIdeal
import proofs.«169552_j84018150245162_2_alg».proof.Proof.Gen.KernelIdeal.Skeleton
import proofs.«169552_j84018150245162_2_alg».proof.Proof.Gen.KernelIdeal.Launch
import proofs.«169552_j84018150245162_2_alg».proof.Proof.Gen.KernelIdeal.Points
import proofs.«169552_j84018150245162_2_alg».proof.Proof.Gen.KernelIdeal.Frame
import proofs.«169552_j84018150245162_2_alg».proof.Proof.Gen.ReferenceIdeal
import proofs.«169552_j84018150245162_2_alg».proof.Proof.Gen.Pre_finite_inputs
import proofs.«169552_j84018150245162_2_alg».proof.Proof.Gen.KernelIdeal.Value
import proofs.«169552_j84018150245162_2_alg».proof.Proof.Gen.ReferenceIdeal.Run
import proofs.«169552_j84018150245162_2_alg».proof.Proof.Gen.ReferenceIdeal.Read
import proofs.«169552_j84018150245162_2_alg».proof.Proof.Blocks
import proofs.«169552_j84018150245162_2_alg».proof.Proof.RefSide
import Idealize.ShloMosaic.Adequacy
import Idealize.ShloMosaic.Init

noncomputable section

namespace Cert.Proof

open Idealize.ShloMosaic Idealize.SL.Sem Cert.GatedCell Cert.GatedCell.Prep

theorem frame_k : Cert.frame_Kernel := fun m g _ => Cert.Kernel.Gen.frame m g
theorem frame_ki : Cert.frame_KernelIdeal := fun m g _ => Cert.KernelIdeal.Gen.frame m g
theorem frame_ri : Cert.frame_ReferenceIdeal := fun m g _ =>
  (θ_run Cert.ReferenceIdeal.defs _ _).mono (fun _ h c => (h c).2.2.2) (Cert.ReferenceIdeal.Value.run (F := Ideal) m g)

/-- The idealization rewrote no operation. -/
theorem preserves : Cert.preserves_Kernel_KernelIdeal := trivial

/-- Both programs end with the cell's output, state and step arrays of arguments that agree. -/
theorem algebraic : Cert.algebraic_KernelIdeal_ReferenceIdeal := by
  intro m g m' g' _ hagree
  refine ⟨fun c => outArr (aX m c) (aH m c) (aN m c) (aWg m c) (aBg m c) (aWr m c) (aBr m c) (aWy m c) (aBy m c) (aWo m c) (aBo m c),
    fun c => stateArr (aX m c) (aH m c) (aN m c) (aWg m c) (aBg m c) (aWr m c) (aBr m c),
    fun c => stepArr (aX m c) (aH m c) (aN m c) (aWg m c) (aBg m c),
    Cert.GatedCell.Blocks.run m g, ?_⟩
  refine (θ_run Cert.ReferenceIdeal.defs _ _).mono (fun _ h c => ?_) (Cert.ReferenceIdeal.Value.run (F := Ideal) m' g')
  obtain ⟨h0, h1, h2, hrest⟩ := h c
  obtain ⟨g0, g1, g2, g3, g4, g5, g6, g7, g8, g9, g10⟩ := hagree c
  refine ⟨?_, ?_, ?_, hrest⟩
  · rw [h0, Cert.ReferenceIdeal.Read.val_main_v38_eq, Cert.GatedCell.Ref.out_ref, g0, g1, g2, g3, g4, g5, g6, g7, g8, g9, g10]
  · rw [h1, Cert.ReferenceIdeal.Read.val_main_v21_eq, Cert.GatedCell.Ref.stateArr_ref, g0, g1, g2, g3, g4, g5, g6]
  · rw [h2, Cert.ReferenceIdeal.Read.val_main_v11_eq, Cert.GatedCell.Ref.step_ref, g0, g1, g2, g3, g4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
